-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x2048 .f32) (main_arg1 : FVec F S64x2048 .f32) (main_arg2 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x2048 : Shape := ⟨2, ![16384, 2048]⟩
abbrev S64x2048 : Shape := ⟨2, ![64, 2048]⟩
abbrev S64 : Shape := ⟨1, ![64]⟩
abbrev S1x64 : Shape := ⟨2, ![1, 64]⟩
abbrev S64x16384 : Shape := ⟨2, ![64, 16384]⟩
abbrev S16384x64 : Shape := ⟨2, ![16384, 64]⟩
abbrev S1024x2048 : Shape := ⟨2, ![1024, 2048]⟩
abbrev S64x1024 : Shape := ⟨2, ![64, 1024]⟩
abbrev S64x1 : Shape := ⟨2, ![64, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S1x64, .f32⟩
  | .hbm, ⟨4, _⟩ => ⟨S64x16384, .f32⟩
  | .hbm, ⟨5, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S1x64, .f32⟩
  | .local _ .vmem, ⟨4, _⟩ => ⟨S64x1024, .f32⟩
  | .local _ .vmem, ⟨5, _⟩ => ⟨S64x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  transposes_S64x16384_S16384x64_1_0 : S64x16384.Transposes [1, 0] S16384x64
  inb_S64x2048_S64x2048_0_0 : ∀ a, (![0, 0] : Fin 2 → Nat) a + S64x2048.size a ≤ S64x2048.size a
  h_S64x2048 : 0 < S64x2048.numel
  inb_S1024x2048_S1024x2048_0_0 : ∀ a, (![0, 0] : Fin 2 → Nat) a + S1024x2048.size a ≤ S1024x2048.size a
  h_S1024x2048 : 0 < S1024x2048.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  broadcasts_S64x1_S64x1024 : S64x1.Broadcasts S64x1024
  inb_S64x1024_S64x1024_0_0 : ∀ a, (![0, 0] : Fin 2 → Nat) a + S64x1024.size a ≤ S64x1024.size a
  h_S64x1024 : 0 < S64x1024.numel
  dot_S64x2048_S1024x2048_S64x1024_1_1_0_0_n_n_wf : DotDims.WF S64x2048 S1024x2048 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x16384.size a
  hwx0_3 : ∀ i : grid0.Coords, EltTy.bits .f32 = 32 ∨ (Rect.block (s := S64x16384) S64x1024.size (cc0_transform_3 i) (hinb0_3 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S16384x64 : Shape := ⟨2, ![16384, 64]⟩
abbrev S1x64 : Shape := ⟨2, ![1, 64]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384x64, .f32⟩
  | .hbm, ⟨10, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.Logits.lean ====
/-
  The function both programs compute: a linear layer's logits.  For tokens `x : 16384 × 2048`, weights
  `W : 64 × 2048` and bias `b : 64`, the logit of expert `e` at token `t` is
  `(∑ k, W e k · x t k) + b e`, on the extended reals.  `logitsT` lays it out experts by tokens (the layout the
  kernel's region writes), `logits` tokens by experts (the result of both programs).  Also here: the float word
  `0x3F800000` is the real number one, and dividing an extended real by one leaves it as it was.
-/
import Idealize.ShloMosaic.PureOps.Ideal
import Idealize.ShloMosaic.Lib.ValueIdx

noncomputable section

namespace Cert.Logits

open Idealize.ShloMosaic Idealize.ShloMosaic.ValueIdx

/-- The logits, experts by tokens: entry `(e, t)` is the inner product of row `e` of `W` with row `t` of `x`, plus `b e`. -/
def logitsT (x : (⟨2, ![16384, 2048]⟩ : Shape).Idx → EReal) (W : (⟨2, ![64, 2048]⟩ : Shape).Idx → EReal)
    (b : (⟨1, ![64]⟩ : Shape).Idx → EReal) : (⟨2, ![64, 16384]⟩ : Shape).Idx → EReal :=
  fun j => (∑ k : Fin 2048, W (ix2 (j 0) k) * x (ix2 (j 1) k)) + b (ix1 (j 0))

/-- The logits, tokens by experts: the transpose of `logitsT`. -/
def logits (x : (⟨2, ![16384, 2048]⟩ : Shape).Idx → EReal) (W : (⟨2, ![64, 2048]⟩ : Shape).Idx → EReal)
    (b : (⟨1, ![64]⟩ : Shape).Idx → EReal) : (⟨2, ![16384, 64]⟩ : Shape).Idx → EReal :=
  fun i => logitsT x W b (ix2 (i 1) (i 0))

/-- The single-precision word `0x3F800000` denotes the real number one. -/
theorem one_f32 : Ideal.ofBits .f32 0x3F800000#32 = ((1 : ℝ) : EReal) := by
  simp [Ideal.ofBits, Ideal.ieee, -EReal.coe_mul]
  norm_num

/-- Dividing by the float one changes nothing, at the infinities too: `s / 1 = s · 1⁻¹ = s`. -/
theorem div_one_f32 (s : EReal) : Ideal.div s (Ideal.ofBits .f32 0x3F800000#32) = s := by
  rw [one_f32, Ideal.div_coe one_ne_zero, one_div, inv_one, EReal.coe_one, mul_one]

end Cert.Logits

end
-- ==== Proof.BlockLogits.lean ====
/-
  What the kernel's body stores at one grid point, entry by entry.  The body multiplies the weights' block
  `Wb : 64 × 2048` by the tokens' block `Xb : 1024 × 2048`, contracting the two second axes, into a zero
  accumulator, and adds the bias row `Bb : 1 × 64` turned into a column and repeated along the 1024 tokens.  So
  entry `(e, r)` of what it stores is `(∑ k, Wb e k · Xb r k) + Bb 0 e`.
-/
import proofs.«100428_g73478300500023_cont_9to1_m_1377_27_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Block

open Cert.KernelIdeal Cert.KernelIdeal.Gen Idealize.ShloMosaic Idealize.ShloMosaic.ValueIdx

/-! ## The matrix product's operand indices, coordinate by coordinate -/

/-- The left operand's row is the output's row (the expert). -/
theorem lhs_row (j : S64x1024.Idx) (q : dot_S64x2048_S1024x2048_S64x1024_1_1_0_0_n_n.contr.Idx) :
    (dot_S64x2048_S1024x2048_S64x1024_1_1_0_0_n_n.lhsIdx j q 0).val = (j 0).val := by
  unfold DotDims.lhsIdx
  rw [dif_neg (show ¬(0 : Fin S64x2048.rank) ∈ dot_S64x2048_S1024x2048_S64x1024_1_1_0_0_n_n.lhsBatch by decide), dif_pos (show (0 : Fin S64x2048.rank) ∈ dot_S64x2048_S1024x2048_S64x1024_1_1_0_0_n_n.lhsNonContracting by decide)]
  rfl
/-- The left operand's column is the contracted index. -/
theorem lhs_col (j : S64x1024.Idx) (q : dot_S64x2048_S1024x2048_S64x1024_1_1_0_0_n_n.contr.Idx) :
    (dot_S64x2048_S1024x2048_S64x1024_1_1_0_0_n_n.lhsIdx j q 1).val = (q ⟨0, by decide⟩).val :=
  dot_S64x2048_S1024x2048_S64x1024_1_1_0_0_n_n.lhsIdx_val_of_single rfl j q
/-- The right operand's row is the output's column (the token within the block). -/
theorem rhs_row (j : S64x1024.Idx) (q : dot_S64x2048_S1024x2048_S64x1024_1_1_0_0_n_n.contr.Idx) :
    (dot_S64x2048_S1024x2048_S64x1024_1_1_0_0_n_n.rhsIdx j q 0).val = (j 1).val := by
  unfold DotDims.rhsIdx
  rw [dif_neg (show ¬(0 : Fin S1024x2048.rank) ∈ dot_S64x2048_S1024x2048_S64x1024_1_1_0_0_n_n.rhsBatch by decide), dif_pos (show (0 : Fin S1024x2048.rank) ∈ dot_S64x2048_S1024x2048_S64x1024_1_1_0_0_n_n.rhsNonContracting by decide)]
  rfl
/-- The right operand's column is the contracted index. -/
theorem rhs_col (j : S64x1024.Idx) (q : dot_S64x2048_S1024x2048_S64x1024_1_1_0_0_n_n.contr.Idx) :
    (dot_S64x2048_S1024x2048_S64x1024_1_1_0_0_n_n.rhsIdx j q 1).val = (q ⟨0, by decide⟩).val :=
  dot_S64x2048_S1024x2048_S64x1024_1_1_0_0_n_n.rhsIdx_val_of_single rfl j q

/-- The product into a zero accumulator, at `(e, r)`: row `e` of the weights' block against row `r` of the tokens' block. -/
theorem product_apply (Wb : FVec Ideal S64x2048 .f32) (Xb : FVec Ideal S1024x2048 .f32) (e : Fin 64) (r : Fin 1024) :
    matmul dot_S64x2048_S1024x2048_S64x1024_1_1_0_0_n_n none Wb Xb (constant (F := Ideal) S64x1024 .f32 0x00000000#32) (ix2 e r)
      = ∑ k : Fin 2048, Wb (ix2 e k) * Xb (ix2 r k) := by
  show FloatOps.matmul _ _ _ _ _ _ = _
  rw [Ideal.matmul_constant_zero_apply, ← Equiv.sum_comp (ValueIdx.contrEquiv1 dot_S64x2048_S1024x2048_S64x1024_1_1_0_0_n_n 2048 rfl rfl).symm]
  refine Finset.sum_congr rfl fun k _ => ?_
  have hk := ValueIdx.contrEquiv1_symm_val dot_S64x2048_S1024x2048_S64x1024_1_1_0_0_n_n 2048 rfl rfl k
  have el : dot_S64x2048_S1024x2048_S64x1024_1_1_0_0_n_n.lhsIdx (ix2 e r) ((ValueIdx.contrEquiv1 dot_S64x2048_S1024x2048_S64x1024_1_1_0_0_n_n 2048 rfl rfl).symm k) = ix2 e k := funext fun a => Fin.ext (by
    match a with
    | ⟨0, _⟩ => exact lhs_row _ _
    | ⟨1, _⟩ => exact (lhs_col _ _).trans hk)
  have er : dot_S64x2048_S1024x2048_S64x1024_1_1_0_0_n_n.rhsIdx (ix2 e r) ((ValueIdx.contrEquiv1 dot_S64x2048_S1024x2048_S64x1024_1_1_0_0_n_n 2048 rfl rfl).symm k) = ix2 r k := funext fun a => Fin.ext (by
    match a with
    | ⟨0, _⟩ => exact rhs_row _ _
    | ⟨1, _⟩ => exact (rhs_col _ _).trans hk)
  rw [el, er]

/-- A column `[64, 1]` repeated along 1024 columns reads, at `(e, r)`, the column's entry `e`. -/
theorem column_repeat_apply {α : Type} (v : S64x1.Idx → α) (e : Fin 64) (r : Fin 1024) :
    broadcastTo S64x1024 v broadcasts_S64x1_S64x1024 (ix2 e r) = v (ix2 e (0 : Fin 1)) := by
  refine broadcastTo_apply v broadcasts_S64x1_S64x1024 (ix2 e r) (ix2 e (0 : Fin 1)) fun ax => ?_
  match ax with
  | ⟨0, _⟩ => rfl
  | ⟨1, _⟩ => rfl

/-- The bias row turned into a column and repeated: at `(e, r)` it is the row's entry `e`. -/
theorem bias_apply (Bb : FVec Ideal S1x64 .f32) (e : Fin 64) (r : Fin 1024) :
    broadcastTo S64x1024 (transpose S64x1 [1, 0] (shapeCast S1x64 Bb shapeCasts_S1x64_S1x64) transposes_S1x64_p1_0_S64x1) broadcasts_S64x1_S64x1024 (ix2 e r)
      = Bb (ix2 (0 : Fin 1) e) := by
  rw [column_repeat_apply, shapeCast_self]
  exact transpose_ix2_apply Bb transposes_S1x64_p1_0_S64x1 e (0 : Fin 1)

/-- What the body stores, at `(e, r)`: the inner product of the weights' row `e` with the block's token `r`, plus the bias of `e`. -/
theorem stored_apply (Wb : Vec Ideal S64x2048 .f32) (Xb : Vec Ideal S1024x2048 .f32) (Bb : Vec Ideal S1x64 .f32) (e : Fin 64) (r : Fin 1024) :
    k0_pay1 (F := Ideal) Wb Xb Bb (ix2 e r) = (∑ k : Fin 2048, Wb (ix2 e k) * Xb (ix2 r k)) + Bb (ix2 (0 : Fin 1) e) := by
  unfold k0_pay1
  show _ + _ = _
  exact congrArg₂ (· + ·) (product_apply Wb Xb e r) (bias_apply Bb e r)

end Cert.KernelIdeal.Block

end
-- ==== Proof.KernelLogits.lean ====
/-
  What the kernel's program leaves in its result, as one function of its three arguments: the logits, tokens by
  experts.  The region walks sixteen blocks of 1024 tokens.  At block `t` the body sees rows `1024·t … 1024·t + 1023`
  of the tokens, all of the weights, and the bias as a `1 × 64` row (a reshape of the argument the host makes before
  the region); what it writes back is columns `1024·t … 1024·t + 1023` of the logits laid out experts by tokens.  The
  sixteen blocks tile that array, so after the region it IS the logits experts by tokens; the host's transpose after the
  region turns it tokens by experts.
-/
import proofs.«100428_g73478300500023_cont_9to1_m_1377_27_alg».proof.Proof.Gen.KernelIdeal.Frame
import proofs.«100428_g73478300500023_cont_9to1_m_1377_27_alg».proof.Proof.BlockLogits
import proofs.«100428_g73478300500023_cont_9to1_m_1377_27_alg».proof.Proof.Logits
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Logits (logits logitsT)

variable (m : (ℓ : Loc nD τ sig) → Buf (Elt Ideal) ℓ) (ρ : Dev nD → PrngReg)

theorem offsets_zero : (![0, 0] : Fin 2 → Nat) = fun _ => 0 := funext fun a => by fin_cases a <;> rfl

/-- The three argument arrays on core `c`, as launched. -/
abbrev tokens (c : Dev nD) : S16384x2048.Idx → EReal := m ((c : Thread nD τ).loc main_arg0)
abbrev weights (c : Dev nD) : S64x2048.Idx → EReal := m ((c : Thread nD τ).loc main_arg1)
abbrev bias (c : Dev nD) : S64.Idx → EReal := m ((c : Thread nD τ).loc main_arg2)

/-! ## Where each window's block sits -/

/-- The block indices at grid point `t`: the tokens' window is at block row `t`, the weights' and the bias's windows
    stay at the origin, the output's window is at block column `t`. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- The bias row the region finds: the host's reshape of the bias argument to `1 × 64`. -/
theorem bias_row (c : Dev nD) :
    (V m c main_call0_v0 : S1x64.Idx → EReal) = shapeCast S1x64 (bias m c) shapeCasts_S64_S1x64 := by
  show StableHlo.after hostOps0 (fun b => m (c, b)) (Proc.devRef .tc main_call0_v0) = _
  after_results
  rfl

/-- The tokens' block at point `t`, at row `r` and column `k`, is the tokens at row `1024·t + r`. -/
theorem tokens_block (c : Dev nD) (t : Fin cfg0.N) (r : Fin 1024) (k : Fin 2048) (i : S16384x2048.Idx)
    (h0 : (i 0).val = t.val * 1024 + r.val) (h1 : (i 1).val = k.val) :
    (iblk m c 0 t : Vec Ideal S1024x2048 .f32) (ix2 r k) = tokens m c i := by
  obtain ⟨e0, e1, -⟩ := block_indices t
  unfold iblk
  rw [View.read_apply]
  show V m c main_arg0 _ = _
  rw [V_main_arg0]
  refine congrArg (tokens m c) (funext fun a => Fin.ext ?_)
  match a with
  | ⟨0, _⟩ => show win0_0.index t (0 : Fin 2) * 1024 + 1 * r.val = (i 0).val; rw [e0, h0]; omega
  | ⟨1, _⟩ => show win0_0.index t (1 : Fin 2) * 2048 + 1 * k.val = (i 1).val; rw [e1, h1]; omega

/-- The weights' block at any point is the weights. -/
theorem weights_block (c : Dev nD) (t : Fin cfg0.N) (e : Fin 64) (k : Fin 2048) :
    (iblk m c 1 t : Vec Ideal S64x2048 .f32) (ix2 e k) = weights m c (ix2 e k) := by
  obtain ⟨-, -, e2, e3, -⟩ := block_indices t
  unfold iblk
  rw [View.read_apply]
  show V m c main_arg1 _ = _
  rw [V_main_arg1]
  refine congrArg (weights m c) (funext fun a => Fin.ext ?_)
  match a with
  | ⟨0, _⟩ => show win0_1.index t (0 : Fin 2) * 64 + 1 * e.val = e.val; rw [e2]; omega
  | ⟨1, _⟩ => show win0_1.index t (1 : Fin 2) * 2048 + 1 * k.val = k.val; rw [e3]; omega

/-- The bias's block at any point, at `(0, e)`, is the bias of expert `e`. -/
theorem bias_block (c : Dev nD) (t : Fin cfg0.N) (e : Fin 64) :
    (iblk m c 2 t : Vec Ideal S1x64 .f32) (ix2 (0 : Fin 1) e) = bias m c (ix1 e) := by
  obtain ⟨-, -, -, -, e4, e5, -⟩ := block_indices t
  unfold iblk
  rw [View.read_apply]
  show V m c main_call0_v0 _ = _
  rw [bias_row]
  refine (shapeCast_a_1a_apply (bias m c) shapeCasts_S64_S1x64 (0 : Fin 1) e).symm ▸ ?_
  refine congrArg (shapeCast S1x64 (bias m c) shapeCasts_S64_S1x64) (funext fun a => Fin.ext ?_)
  match a with
  | ⟨0, _⟩ => show win0_2.index t (0 : Fin 2) * 1 + 1 * 0 = 0; rw [e4]
  | ⟨1, _⟩ => show win0_2.index t (1 : Fin 2) * 64 + 1 * e.val = e.val; rw [e5]; omega

/-! ## What a point writes back -/

/-- An index of the output array lies in point `t`'s block iff each coordinate is in the block's range on its axis. -/
theorem mem_block (t : Fin cfg0.N) (i : S64x16384.Idx) :
    i ∈ ((cfg0.win 3).blk t).view.set ↔ ∀ a : Fin 2, win0_3.index t a * S64x1024.size a ≤ (i a).val ∧ (i a).val < win0_3.index t a * S64x1024.size a + S64x1024.size a := by
  show i ∈ ((View.whole main_call0_v1).slice (win0_3.rect t)).set ↔ _
  rw [View.set_slice_whole, Rect.mem_set_unit]
  exact Iff.rfl

/-- Entry `(e, r)` of what the body stores at point `t` is the logit of expert `e` at token `1024·t + r`. -/
theorem stored_logit (c : Dev nD) (t : Fin cfg0.N) (e : Fin 64) (r : Fin 1024) (i : S64x16384.Idx)
    (h0 : (i 0).val = e.val) (h1 : (i 1).val = t.val * 1024 + r.val) :
    k0_pay1 (F := Ideal) (iblk m c 1 t) (iblk m c 0 t) (iblk m c 2 t) (ix2 e r) = logitsT (tokens m c) (weights m c) (bias m c) i := by
  rw [Block.stored_apply]
  have hi0 : i 0 = e := Fin.ext h0
  show _ = (∑ k : Fin 2048, weights m c (ix2 (i 0) k) * tokens m c (ix2 (i 1) k)) + bias m c (ix1 (i 0))
  rw [hi0, bias_block]
  refine congrArg (· + bias m c (ix1 e)) (Finset.sum_congr rfl fun k _ => ?_)
  rw [weights_block, tokens_block m c t r k (ix2 (i 1) k) h1 rfl]

/-- What point `t` writes back is block `t` of the logits laid out experts by tokens. -/
theorem flushed_eq (c : Dev nD) (t : Fin cfg0.N) :
    (dats m 0 c).flushed 3 t = ((cfg0.win 3).blk t).view.read (Elt Ideal) (logitsT (tokens m c) (weights m c) (bias m c)) := by
  show (cfg0.win 3).cut (grid0.coords t) ((dats m 0 c).after 3 t) = _
  rw [after0_3]
  unfold out0_3
  rw [View.canon_unit_zero offsets_zero]
  simp only [View.ld_unit_zero (S := S64x2048) offsets_zero, View.ld_unit_zero (S := S1024x2048) offsets_zero, View.ld_unit_zero (S := S1x64) offsets_zero]
  obtain ⟨-, -, -, -, -, -, e6, e7⟩ := block_indices t
  funext j
  obtain ⟨e, r, rfl⟩ : ∃ (e : Fin 64) (r : Fin 1024), j = ix2 e r := ⟨j 0, j 1, eq_ix2 j⟩
  show k0_pay1 (F := Ideal) (iblk m c 1 t) (iblk m c 0 t) (iblk m c 2 t) (ix2 e r) = logitsT (tokens m c) (weights m c) (bias m c) (((cfg0.win 3).blk t).view.emb (ix2 e r))
  refine stored_logit m c t e r _ ?_ ?_
  · show win0_3.index t (0 : Fin 2) * 64 + 1 * e.val = e.val; rw [e6]; omega
  · show win0_3.index t (1 : Fin 2) * 1024 + 1 * r.val = t.val * 1024 + r.val; rw [e7]; omega

/-- Every entry of the output array is in some point's block: token `T` is in block `T / 1024`. -/
theorem covered (i : S64x16384.Idx) : ∃ t : Fin cfg0.N, (cfg0.win 3).flush t = true ∧ i ∈ ((cfg0.win 3).blk t).view.set := by
  have hi0 : (i 0).val < 64 := (i 0).isLt
  have hi1 : (i 1).val < 16384 := (i 1).isLt
  have hN : cfg0.N = 16 := N_0
  have ht : (i 1).val / 1024 < cfg0.N := by rw [hN]; omega
  obtain ⟨-, -, -, -, -, -, e6, e7⟩ := block_indices ⟨(i 1).val / 1024, ht⟩
  refine ⟨⟨(i 1).val / 1024, ht⟩, flush0_3 _, ?_⟩
  rw [mem_block]
  intro a
  match a with
  | ⟨0, _⟩ =>
    show win0_3.index ⟨(i 1).val / 1024, ht⟩ (0 : Fin 2) * 64 ≤ (i 0).val ∧ (i 0).val < win0_3.index ⟨(i 1).val / 1024, ht⟩ (0 : Fin 2) * 64 + 64
    rw [e6]; omega
  | ⟨1, _⟩ =>
    show win0_3.index ⟨(i 1).val / 1024, ht⟩ (1 : Fin 2) * 1024 ≤ (i 1).val ∧ (i 1).val < win0_3.index ⟨(i 1).val / 1024, ht⟩ (1 : Fin 2) * 1024 + 1024
    rw [e7]
    show (i 1).val / 1024 * 1024 ≤ (i 1).val ∧ (i 1).val < (i 1).val / 1024 * 1024 + 1024
    omega

/-- After the region the output array is the logits, experts by tokens. -/
theorem region_result (c : Dev nD) :
    (dats m 0 c).arrAt 3 cfg0.N = logitsT (tokens m c) (weights m c) (bias m c) :=
  (dats m 0 c).arrAt_eq_of_cover 3 (logitsT (tokens m c) (weights m c) (bias m c)) (fun t _ => flushed_eq m c t) covered

/-! ## The transpose after the region, and the run -/

/-- The program's result, after the host's transpose of the region's output: the logits, tokens by experts. -/
theorem result_eq (c : Dev nD) :
    Pipeline.afterTail₀ cfgs (dats m) 0 (V0 m) [hostOps1] c main_v0 = logits (tokens m c) (weights m c) (bias m c) := by
  unfold Pipeline.afterTail₀
  show StableHlo.after hostOps1 _ (Proc.devRef .tc main_v0) = _
  after_results
  rw [(Pipeline.withArrays_arr spec0 launch0.win.arr_inj c _ _ 3).trans (region_result m c)]
  funext i
  obtain ⟨T, e, rfl⟩ : ∃ (T : Fin 16384) (e : Fin 64), i = ix2 T e := ⟨i 0, i 1, eq_ix2 i⟩
  show transpose S16384x64 [1, 0] (logitsT (tokens m c) (weights m c) (bias m c)) transposes_S64x16384_S16384x64_1_0 (ix2 T e) = _
  exact transpose_ix2_apply _ transposes_S64x16384_S16384x64_1_0 T e

/-- Every weakly fair execution of the kernel's program terminates with the result at the logits of the arguments as
    launched, tokens by experts, and the arguments unchanged. -/
theorem run : θ_run defs (onTc (τ := τ) (main (F := Ideal))) ⟨m, fun _ => 0, ρ⟩ fun r => ∀ c : Dev nD,
      r.2.mem ((c.tc : Thread nD τ).loc main_v0) = logits (tokens m c) (weights m c) (bias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v0 (Pipeline.mem_restRefs_of main_v0 (by decide) (by decide))).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.KernelIdeal.Whole

end
-- ==== Proof.ReferenceLogits.lean ====
/-
  The reference's result is the logits.  The reference transposes the weights, multiplies the tokens by them
  (entry `(t, e)` is `∑ k, x t k · W e k`), adds the bias repeated over the tokens, and divides by the temperature,
  the float one.  Multiplication of extended reals commutes and division by one changes nothing, so entry `(t, e)`
  is `(∑ k, W e k · x t k) + b e`.
-/
import proofs.«100428_g73478300500023_cont_9to1_m_1377_27_alg».proof.Proof.Gen.ReferenceIdeal.Read
import proofs.«100428_g73478300500023_cont_9to1_m_1377_27_alg».proof.Proof.Logits

noncomputable section

namespace Cert.ReferenceIdeal.RefLogits

open Cert.ReferenceIdeal Cert.ReferenceIdeal.Read Idealize.ShloMosaic Idealize.ShloMosaic.ValueIdx

/-- The product's left operand is read at token `t`, column `k`. -/
theorem tokens_index (i : S16384x64.Idx) (k : Fin 2048) : lidx_main_v1 i k = ix2 (i 0) k :=
  funext fun a => Fin.ext (by match a with | ⟨0, _⟩ => rfl | ⟨1, _⟩ => rfl)

/-- The product's right operand, the transposed weights at `(k, e)`, is the weights at expert `e`, column `k`. -/
theorem weights_index (i : S16384x64.Idx) (k : Fin 2048) : idx_main_v0 (ridx_main_v1 i k) = ix2 (i 1) k :=
  funext fun a => Fin.ext (by match a with | ⟨0, _⟩ => rfl | ⟨1, _⟩ => rfl)

/-- The bias repeated over the tokens is read at expert `e`. -/
theorem bias_index (i : S16384x64.Idx) : idx_main_v2 (idx_main_v3 i) = ix1 (i 1) :=
  funext fun a => Fin.ext (by match a with | ⟨0, _⟩ => rfl)

/-- The reference's result, as a function of its three arguments, is the logits, tokens by experts. -/
theorem reference_eq (x : (⟨S16384x2048, .f32⟩ : BufTy).Contents (Elt Ideal)) (W : (⟨S64x2048, .f32⟩ : BufTy).Contents (Elt Ideal))
    (b : (⟨S64, .f32⟩ : BufTy).Contents (Elt Ideal)) :
    val_main_v6 (F := Ideal) x W b = Cert.Logits.logits x W b := by
  funext i
  rw [val_main_v6_apply, val_main_v4_apply, val_main_v1_apply, val_main_v3_apply, val_main_v2_apply, val_main_v5_apply,
    val_main_cst_apply]
  simp only [val_main_v0_apply, tokens_index, weights_index, bias_index, Ideal.hostDivf_def, Ideal.addf_def, Ideal.ofBits_def]
  rw [Cert.Logits.div_one_f32]
  show _ = (∑ k : Fin 2048, W (ix2 (i 1) k) * x (ix2 (i 0) k)) + b (ix1 (i 1))
  exact congrArg (· + b (ix1 (i 1))) (Finset.sum_congr rfl fun k _ => mul_comm _ _)

end Cert.ReferenceIdeal.RefLogits

end
-- ==== Proof.lean ====
/-
  A linear layer's logits, computed two ways.  The kernel walks sixteen blocks of 1024 tokens, multiplies the
  weights by each block of tokens (contracting the feature axis), adds the bias as a column, writes the block of
  logits experts by tokens, and transposes the whole at the end.  The reference multiplies the tokens by the
  transposed weights, adds the bias repeated over the tokens, and divides by a temperature of one.  On the extended
  reals both results are `(∑ k, W e k · x t k) + b e` at token `t` and expert `e`: the two products differ by the
  order of the factors, which commutes, and the division by one changes nothing.  No finiteness of the inputs is used.
  The three frames are the generated ones (the reference's is its generated run with the result dropped); the
  idealization rewrote no operation, so there is nothing to preserve.
-/
import proofs.«100428_g73478300500023_cont_9to1_m_1377_27_alg».proof.Defs
import proofs.«100428_g73478300500023_cont_9to1_m_1377_27_alg».proof.Proof.Gen.Kernel
import proofs.«100428_g73478300500023_cont_9to1_m_1377_27_alg».proof.Proof.Gen.Kernel.Skeleton
import proofs.«100428_g73478300500023_cont_9to1_m_1377_27_alg».proof.Proof.Gen.Kernel.Launch
import proofs.«100428_g73478300500023_cont_9to1_m_1377_27_alg».proof.Proof.Gen.Kernel.Points
import proofs.«100428_g73478300500023_cont_9to1_m_1377_27_alg».proof.Proof.Gen.Kernel.Frame
import proofs.«100428_g73478300500023_cont_9to1_m_1377_27_alg».proof.Proof.Gen.KernelIdeal
import proofs.«100428_g73478300500023_cont_9to1_m_1377_27_alg».proof.Proof.Gen.KernelIdeal.Skeleton
import proofs.«100428_g73478300500023_cont_9to1_m_1377_27_alg».proof.Proof.Gen.KernelIdeal.Launch
import proofs.«100428_g73478300500023_cont_9to1_m_1377_27_alg».proof.Proof.Gen.KernelIdeal.Points
import proofs.«100428_g73478300500023_cont_9to1_m_1377_27_alg».proof.Proof.Gen.KernelIdeal.Frame
import proofs.«100428_g73478300500023_cont_9to1_m_1377_27_alg».proof.Proof.Gen.ReferenceIdeal
import proofs.«100428_g73478300500023_cont_9to1_m_1377_27_alg».proof.Proof.Gen.ReferenceIdeal.Run
import proofs.«100428_g73478300500023_cont_9to1_m_1377_27_alg».proof.Proof.Gen.ReferenceIdeal.Read
import proofs.«100428_g73478300500023_cont_9to1_m_1377_27_alg».proof.Proof.Gen.Pre_finite_inputs
import proofs.«100428_g73478300500023_cont_9to1_m_1377_27_alg».proof.Proof.Logits
import proofs.«100428_g73478300500023_cont_9to1_m_1377_27_alg».proof.Proof.BlockLogits
import proofs.«100428_g73478300500023_cont_9to1_m_1377_27_alg».proof.Proof.KernelLogits
import proofs.«100428_g73478300500023_cont_9to1_m_1377_27_alg».proof.Proof.ReferenceLogits
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- And the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the logits of those arguments, tokens by experts. -/
theorem algebraic : Cert.algebraic_KernelIdeal_ReferenceIdeal := by
  intro m ρ m' ρ' _ hagree
  refine ⟨fun c => Cert.Logits.logits (Cert.KernelIdeal.Whole.tokens m c) (Cert.KernelIdeal.Whole.weights m c) (Cert.KernelIdeal.Whole.bias m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefLogits.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
